-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S512x1024 : Shape := ⟨2, ![512, 1024]⟩
abbrev S512 : Shape := ⟨1, ![512]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x2048x1024 .f32) (main_arg1 : FVec F S512x1024 .f32) (main_arg2 : FVec F S512 .f32) (main_arg3 : FVec F S512x1024 .f32) (main_arg4 : FVec F S512 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_v13 main_v16
-- ==== Kernel.lean ====
abbrev S8x2048x1024 : Shape := ⟨3, ![8, 2048, 1024]⟩
abbrev S512x1024 : Shape := ⟨2, ![512, 1024]⟩
abbrev S512 : Shape := ⟨1, ![512]⟩
abbrev S1024x512 : Shape := ⟨2, ![1024, 512]⟩
abbrev S1024x1024 : Shape := ⟨2, ![1024, 1024]⟩
abbrev S1024 : Shape := ⟨1, ![1024]⟩
abbrev S1x1024 : Shape := ⟨2, ![1, 1024]⟩
abbrev S8x2048x512 : Shape := ⟨3, ![8, 2048, 512]⟩
abbrev S1x1024x1024 : Shape := ⟨3, ![1, 1024, 1024]⟩
abbrev S1x1024x512 : Shape := ⟨3, ![1, 1024, 512]⟩

abbrev nBuf : Space → Nat
  | .hbm => 13
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S1024x512, .f32⟩
  | .hbm, ⟨6, _⟩ => ⟨S1024x512, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1x1024, .f32⟩
  | .hbm, ⟨11, _⟩ => ⟨S8x2048x512, .f32⟩
  | .hbm, ⟨12, _⟩ => ⟨S8x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x1024_S1024x512_1_0 : S512x1024.Transposes [1, 0] S1024x512
  concatenates_S1024x512_S1024x512_S1024x1024_d1 : Shape.Concatenates [S1024x512, S1024x512] S1024x1024 1
  bitsLt_bf16_f32 : FTy.bits .bf16 < FTy.bits .f32
  concatenates_S512_S512_S1024_d0 : Shape.Concatenates [S512, S512] S1024 0
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x512 : S1024x1024.Slices ![0, 0] S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  slices_S1024x1024_o0_512_S1024x512 : S1024x1024.Slices ![0, 512] S1024x512
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x2048x512.size a
  hwx0_3 : ∀ i : grid0.Coords, EltTy.bits .f32 = 32 ∨ (Rect.block (s := S8x2048x512) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S8x2048x512.size a
  hwx0_4 : ∀ i : grid0.Coords, EltTy.bits .f32 = 32 ∨ (Rect.block (s := S8x2048x512) S1x1024x512.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S512x1024 : Shape := ⟨2, ![512, 1024]⟩
abbrev S512 : Shape := ⟨1, ![512]⟩
abbrev S8x2048x512 : Shape := ⟨3, ![8, 2048, 512]⟩
abbrev S1x1x512 : Shape := ⟨3, ![1, 1, 512]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S2048x2 : Shape := ⟨2, ![2048, 2]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S8x2048x512, .f32⟩
  | .hbm, ⟨6, _⟩ => ⟨S1x1x512, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S1x1x512, .f32⟩
  | .hbm, ⟨11, _⟩ => ⟨S8x2048x512, .f32⟩
  | .hbm, ⟨12, _⟩ => ⟨S8x2048x512, .f32⟩
  | .hbm, ⟨13, _⟩ => ⟨S_, .f32⟩
  | .hbm, ⟨14, _⟩ => ⟨S8x2048x512, .f32⟩
  | .hbm, ⟨15, _⟩ => ⟨S8x2048x512, .f32⟩
  | .hbm, ⟨16, _⟩ => ⟨S8x2048x512, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x2048, .f32⟩
  | .hbm, ⟨21, _⟩ => ⟨S8x2048x1, .f32⟩
  | .hbm, ⟨22, _⟩ => ⟨S8x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x1, .i32⟩
  | .hbm, ⟨53, _⟩ => ⟨S2048x2, .i32⟩
  | .hbm, ⟨54, _⟩ => ⟨S8x2048, .f32⟩
  | .hbm, ⟨55, _⟩ => ⟨S8x2048x1, .f32⟩
  | .hbm, ⟨56, _⟩ => ⟨S8x2048x512, .f32⟩
  | .hbm, ⟨57, _⟩ => ⟨S8x2048x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_c : Ref sig .tc := ⟨.hbm, 37, rfl⟩
abbrev main_call0_v2 : Ref sig .tc := ⟨.hbm, 38, rfl⟩
abbrev main_call0_v3 : Ref sig .tc := ⟨.hbm, 39, rfl⟩
abbrev main_call0_c_0 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_c_1 : Ref sig .tc := ⟨.hbm, 44, rfl⟩
abbrev main_call0_v7 : Ref sig .tc := ⟨.hbm, 45, rfl⟩
abbrev main_call0_v8 : Ref sig .tc := ⟨.hbm, 46, rfl⟩
abbrev main_call0_c_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x512 : S_.BroadcastsInDim S8x2048x512 (![] : Fin 0 → Fin S8x2048x512.rank)
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S8x2048x1_S8x2048x512_0_1_2 : S8x2048x1.BroadcastsInDim S8x2048x512 (![0, 1, 2] : Fin 3 → Fin S8x2048x512.rank)
  dot_S8x2048x1024_S512x1024_S8x2048x512_2_1_01_0_n_n_wf : DotDims.WF S8x2048x1024 S512x1024 S8x2048x512 [2] [1] [0, 1] [0] [] []
  dot_S8x2048x1024_S8x2048x1024_S8x2048x2048_2_2_1_1_0_0_wf : DotDims.WF S8x2048x1024 S8x2048x1024 S8x2048x2048 [2] [2] [1] [1] [0] [0]
  gather_S8x2048x2048_S2048x2_S8x2048_0_12_n_n_12_1_811_wf : GatherDims.WF S8x2048x2048 S2048x2 S8x2048 [0] [1, 2] [] [1, 2] [] 1 ![8, 1, 1]

variable [Facts₀]

def dot_S8x2048x1024_S512x1024_S8x2048x512_2_1_01_0_n_n : DotDims S8x2048x1024 S512x1024 S8x2048x512 where
  lhsContracting := [2]
  rhsContracting := [1]
  lhsNonContracting := [0, 1]
  rhsNonContracting := [0]
  lhsBatch := []
  rhsBatch := []
  wf := dot_S8x2048x1024_S512x1024_S8x2048x512_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def gather_S8x2048x2048_S2048x2_S8x2048_0_12_n_n_12_1_811 : GatherDims S8x2048x2048 S2048x2 S8x2048 where
  offsetDims := [0]
  collapsedSliceDims := [1, 2]
  operandBatchingDims := []
  startIndicesBatchingDims := []
  startIndexMap := [1, 2]
  indexVectorDim := 1
  sliceSizes := ![8, 1, 1]
  wf := gather_S8x2048x2048_S2048x2_S8x2048_0_12_n_n_12_1_811_wf

class Facts : Prop extends Facts₀ where

variable [Facts]
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Payload.lean ====
/-
  The kernel body's shared value at an index.

  The body loads a [1, 1024, 1024] block of x, the whole [1024, 1024] combined weight and the [1, 1024] combined bias,
  and computes  out = x_block · Wc + bias  (a matrix product into a zero accumulator, the bias row spread over the
  rows). At (r, col) that is  (∑ k, x_block (0, r, k) · Wc (k, col)) + bias (0, col): the format changes are the identity
  on extended reals, dropping the block's unit axis keeps the row-major position, and a cast to the same shape is the
  identity.
-/
import proofs.«107410_j59605556134142_2_alg».proof.Proof.Gen.KernelIdeal.Skeleton
import proofs.«107410_j59605556134142_2_alg».proof.Proof.LibPlainDot
import Idealize.ShloMosaic.Lib.Pipeline.Value
import Idealize.ShloMosaic.Lib.ValueIdx

noncomputable section

open scoped BigOperators

namespace Cert.KernelIdeal.Bridge

open Cert.KernelIdeal Cert.KernelIdeal.Gen Idealize.ShloMosaic Idealize.ShloMosaic.ValueIdx

/-- The body's contraction is the plain M×K by K×N product. -/
theorem dot_plain : dot_S1024x1024_S1024x1024_S1024x1024_1_0_0_1_n_n = DotDims.plain 1024 1024 1024 := rfl

/-- The block of x with its unit axis dropped, at (r, k), is the block at (0, r, k). -/
theorem drop_unit_apply (P0 : Vec Ideal S1x1024x1024 .f32) (r k : Fin 1024) :
    shapeCast S1024x1024 P0 shapeCasts_S1x1024x1024_S1024x1024 (ix2 r k) = P0 (ix3 0 r k) := by
  refine shapeCast_apply _ _ (ix2 r k) (ix3 0 r k) ?_
  rw [Shape.rowMajor_val_two, Shape.rowMajor_val_three]
  show ((0 : Fin 1).val * 1024 + r.val) * 1024 + k.val = r.val * 1024 + k.val
  simp

/-- The bias row spread over the rows, at (r, col), is the bias at (0, col). -/
theorem spread_rows_apply (P2 : Vec Ideal S1x1024 .f32) (r col : Fin 1024) :
    broadcastTo S1024x1024 P2 broadcasts_S1x1024_S1024x1024 (ix2 r col) = P2 (ix2 0 col) := by
  refine broadcastTo_apply _ _ (ix2 r col) (ix2 0 col) (fun a => ?_)
  match a with
  | ⟨0, _⟩ => rfl
  | ⟨1, _⟩ => rfl

/-- THE SHARED VALUE AT (r, col): the row r of the x block against the column col of the combined weight, plus the
    combined bias at col. -/
theorem pay1_apply (P0 : Vec Ideal S1x1024x1024 .f32) (P1 : Vec Ideal S1024x1024 .bf16) (P2 : Vec Ideal S1x1024 .f32)
    (r col : Fin 1024) :
    k0_pay1 P0 P1 P2 (ix2 r col) = (∑ k : Fin 1024, P0 (ix3 0 r k) * P1 (ix2 k col)) + P2 (ix2 0 col) := by
  unfold k0_pay1
  rw [addf_apply, shapeCast_self, shapeCast_self, spread_rows_apply]
  refine congrArg (· + P2 (ix2 0 col)) ?_
  show FloatOps.matmul dot_S1024x1024_S1024x1024_S1024x1024_1_0_0_1_n_n none _ _ (constant S1024x1024 .f32 0x00000000#32) (ix2 r col) = _
  rw [dot_plain]
  refine (PlainDot.matmul_zero_apply (φ₁ := .bf16) (φ₂ := .bf16) none
    (truncf .bf16 (shapeCast S1024x1024 P0 shapeCasts_S1x1024x1024_S1024x1024) bitsLt_bf16_f32) P1 r col).trans ?_
  refine Finset.sum_congr rfl fun k _ => ?_
  rw [truncf_apply, drop_unit_apply]

end Cert.KernelIdeal.Bridge

end
-- ==== Proof.HostPrefix.lean ====
/-
  What the region finds in its two resident operands.

  Before the region the host joins the two transposed weights side by side, Wc = [W₁ᵀ | W₃ᵀ] : [1024, 1024] (then changes
  the float format, the identity on extended reals), and joins the two biases end to end into one row bc : [1, 1024].
  So column col of Wc is row col of W₁ when col < 512 and row col − 512 of W₃ otherwise, and the same split holds for bc.
-/
import proofs.«107410_j59605556134142_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.ValueIdx Idealize.ShloMosaic.StableHlo

/-- The combined weight [W₁ᵀ | W₃ᵀ]. -/
def Wc (W1 W3 : S512x1024.Idx → EReal) : S1024x1024.Idx → EReal :=
  truncf (F := Ideal) .bf16
    (concatenate S1024x1024 1
      [⟨S1024x512, transpose S1024x512 [1, 0] W1 transposes_S512x1024_S1024x512_1_0⟩,
        ⟨S1024x512, transpose S1024x512 [1, 0] W3 transposes_S512x1024_S1024x512_1_0⟩]
      concatenates_S1024x512_S1024x512_S1024x1024_d1)
    bitsLt_bf16_f32

/-- The combined bias row [b₁ | b₃]. -/
def bc (b1 b3 : S512.Idx → EReal) : S1x1024.Idx → EReal :=
  shapeCast S1x1024
    (concatenate S1024 0 [⟨S512, b1⟩, ⟨S512, b3⟩] concatenates_S512_S512_S1024_d0)
    shapeCasts_S1024_S1x1024

/-- A transposed weight at (k, e) is the weight at (e, k). -/
theorem transposed_apply (W : S512x1024.Idx → EReal) (k : Fin 1024) (e : Fin 512) :
    transpose S1024x512 [1, 0] W transposes_S512x1024_S1024x512_1_0 (ix2 k e) = W (ix2 e k) := by
  refine transpose_apply _ _ _ (ix2 k e) (ix2 e k) (fun b => ?_)
  match b with
  | ⟨0, _⟩ => rfl
  | ⟨1, _⟩ => rfl

/-- The left half of the combined weight is W₁ transposed. -/
theorem Wc_left (W1 W3 : S512x1024.Idx → EReal) (k : Fin 1024) (e : Fin 512) :
    Wc W1 W3 (ix2 k (⟨e.val, by omega⟩ : Fin 1024)) = W1 (ix2 e k) := by
  unfold Wc
  rw [truncf_apply]
  refine (concatenate_pair_apply_left (s₁ := S1024x512) (s₂ := S1024x512) (1 : Fin S1024x1024.rank) _ _ _ _ rfl
    (ix2 k e : S1024x512.Idx) (fun b => ?_)).trans
    (transposed_apply W1 k e)
  match b with
  | ⟨0, _⟩ => rfl
  | ⟨1, _⟩ => rfl

/-- The right half of the combined weight is W₃ transposed. -/
theorem Wc_right (W1 W3 : S512x1024.Idx → EReal) (k : Fin 1024) (e : Fin 512) :
    Wc W1 W3 (ix2 k (⟨e.val + 512, by omega⟩ : Fin 1024)) = W3 (ix2 e k) := by
  unfold Wc
  rw [truncf_apply]
  refine (concatenate_pair_apply_right (s₁ := S1024x512) (s₂ := S1024x512) (1 : Fin S1024x1024.rank) _ _ _ _ rfl rfl
    (ix2 k e : S1024x512.Idx) (fun b hb => ?_) rfl).trans
    (transposed_apply W3 k e)
  match b with
  | ⟨0, _⟩ => rfl
  | ⟨1, _⟩ => exact absurd rfl hb

/-- The bias row at (0, col) is the joined bias vector at col. -/
theorem bc_apply (b1 b3 : S512.Idx → EReal) (col : Fin 1024) :
    bc b1 b3 (ix2 0 col)
      = concatenate S1024 0 [⟨S512, b1⟩, ⟨S512, b3⟩] concatenates_S512_S512_S1024_d0 (ix1 col) := by
  unfold bc
  refine shapeCast_apply _ _ (ix2 0 col) (ix1 col) ?_
  rw [Shape.rowMajor_val_one, Shape.rowMajor_val_two]
  show col.val = (0 : Fin 1).val * 1024 + col.val
  simp

/-- The left half of the bias row is b₁. -/
theorem bc_left (b1 b3 : S512.Idx → EReal) (e : Fin 512) :
    bc b1 b3 (ix2 0 (⟨e.val, by omega⟩ : Fin 1024)) = b1 (ix1 e) := by
  rw [bc_apply]
  refine concatenate_pair_apply_left (s₁ := S512) (s₂ := S512) (0 : Fin S1024.rank) _ _ _ _ rfl (ix1 e : S512.Idx) (fun b => ?_)
  match b with
  | ⟨0, _⟩ => rfl

/-- The right half of the bias row is b₃. -/
theorem bc_right (b1 b3 : S512.Idx → EReal) (e : Fin 512) :
    bc b1 b3 (ix2 0 (⟨e.val + 512, by omega⟩ : Fin 1024)) = b3 (ix1 e) := by
  rw [bc_apply]
  refine concatenate_pair_apply_right (s₁ := S512) (s₂ := S512) (0 : Fin S1024.rank) _ _ _ _ rfl rfl (ix1 e : S512.Idx)
    (fun b hb => ?_) rfl
  match b with
  | ⟨0, _⟩ => exact absurd rfl hb

variable (m : (ℓ : Loc nD τ sig) → Buf (Elt Ideal) ℓ)

/-- The region finds the combined weight of the two weight arguments in its second operand. -/
theorem V_weight (c : Dev nD) :
    (V m c main_v3 : S1024x1024.Idx → EReal)
      = Wc (m ((c : Thread nD τ).loc main_arg1)) (m ((c : Thread nD τ).loc main_arg3)) := by
  dsimp only [Gen.V, Gen.hostOps0]
  after_results
  rfl

/-- The region finds the combined bias row of the two bias arguments in its third operand. -/
theorem V_bias (c : Dev nD) :
    (V m c main_v5 : S1x1024.Idx → EReal)
      = bc (m ((c : Thread nD τ).loc main_arg2)) (m ((c : Thread nD τ).loc main_arg4)) := by
  dsimp only [Gen.V, Gen.hostOps0]
  after_results
  rfl

end Cert.KernelIdeal.Bridge

end
-- ==== Proof.Heads.lean ====
/-
  The two linear heads this certificate is about, as functions of the argument arrays.

  For x : [8, 2048, 1024], a weight W : [512, 1024] and a bias b : [512], the head is
      lin x W b (p, n, e) = (∑ k, x (p, n, k) · W (e, k)) + b e
  over the extended reals. The first result is `lin x W₁ b₁` itself; the second is `exp (½ · lin x W₃ b₃)`.
-/
import Idealize.ShloMosaic.Lib.ValueIdx
import Idealize.ShloMosaic.PureOps.Ideal.Laws

noncomputable section

open scoped BigOperators

namespace Cert.Heads

open Idealize.ShloMosaic Idealize.ShloMosaic.ValueIdx

/-- One linear head at (p, n, e): the row (p, n) of x against the row e of W, plus the bias at e. -/
def lin (x : (⟨3, ![8, 2048, 1024]⟩ : Shape).Idx → EReal) (W : (⟨2, ![512, 1024]⟩ : Shape).Idx → EReal)
    (b : (⟨1, ![512]⟩ : Shape).Idx → EReal) (p : Fin 8) (n : Fin 2048) (e : Fin 512) : EReal :=
  (∑ k : Fin 1024, x (ix3 p n k) * W (ix2 e k)) + b (ix1 e)

/-- The first result: the head itself, index by index. -/
def mean (x : (⟨3, ![8, 2048, 1024]⟩ : Shape).Idx → EReal) (W : (⟨2, ![512, 1024]⟩ : Shape).Idx → EReal)
    (b : (⟨1, ![512]⟩ : Shape).Idx → EReal) : (⟨3, ![8, 2048, 512]⟩ : Shape).Idx → EReal :=
  fun i => lin x W b (i 0) (i 1) (i 2)

/-- The second result: the exponential of half the head (the half is the literal 0x3F000000 on both sides). -/
def spread (x : (⟨3, ![8, 2048, 1024]⟩ : Shape).Idx → EReal) (W : (⟨2, ![512, 1024]⟩ : Shape).Idx → EReal)
    (b : (⟨1, ![512]⟩ : Shape).Idx → EReal) : (⟨3, ![8, 2048, 512]⟩ : Shape).Idx → EReal :=
  fun i => Ideal.exp (Ideal.ofBits .f32 0x3F000000#32 * lin x W b (i 0) (i 1) (i 2))

end Cert.Heads

end
-- ==== Proof.KernelHeads.lean ====
/-
  The kernel's two output arrays as the heads.

  Grid point t = (p, h) stages the block of x at batch p, rows 1024·h … 1024·h + 1023, the whole combined weight and the whole
  combined bias row, and writes the blocks (p, 1024·h …, all 512 columns) of the two outputs. Inside a block, entry (0, r, e)
  of the first output is  (∑ k, x_block (0, r, k) · Wc (k, e)) + bc (0, e), which is the first head at the array index the
  block entry sits at; the second output reads the columns e + 512 and applies exp (½ · ). The sixteen blocks tile each
  output, so each output array ends holding the head everywhere.
-/
import proofs.«107410_j59605556134142_2_alg».proof.Proof.Gen.KernelIdeal.Value
import proofs.«107410_j59605556134142_2_alg».proof.Proof.Payload
import proofs.«107410_j59605556134142_2_alg».proof.Proof.HostPrefix
import proofs.«107410_j59605556134142_2_alg».proof.Proof.Heads

set_option maxRecDepth 16384

noncomputable section

open scoped BigOperators

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## A block entry over the body's loads -/

/-- The first output's block at (z, r, e): row r of the x block against column e of the combined weight, plus the bias. -/
theorem E3_apply (P0 : Vec Ideal S1x1024x1024 .f32) (P1 : Vec Ideal S1024x1024 .bf16) (P2 : Vec Ideal S1x1024 .f32)
    (z : Fin 1) (r : Fin 1024) (e : Fin 512) :
    Value.E3 P0 P1 P2 (ix3 z r e)
      = (∑ k : Fin 1024, P0 (ix3 0 r k) * P1 (ix2 k (⟨e.val, by omega⟩ : Fin 1024)))
          + P2 (ix2 0 (⟨e.val, by omega⟩ : Fin 1024)) := by
  have hi : Value.ix3_0 (ix3 z r e) = ix2 r (⟨e.val, by omega⟩ : Fin 1024) := funext fun a => by
    match a with
    | ⟨0, _⟩ => rfl
    | ⟨1, _⟩ => rfl
  show k0_pay1 P0 P1 P2 (Value.ix3_0 (ix3 z r e)) = _
  rw [hi, pay1_apply]

/-- The second output's block at (z, r, e): the same value at column e + 512, halved and exponentiated. -/
theorem E4_apply (P0 : Vec Ideal S1x1024x1024 .f32) (P1 : Vec Ideal S1024x1024 .bf16) (P2 : Vec Ideal S1x1024 .f32)
    (z : Fin 1) (r : Fin 1024) (e : Fin 512) :
    Value.E4 P0 P1 P2 (ix3 z r e)
      = Ideal.exp (Ideal.ofBits .f32 0x3F000000#32
          * ((∑ k : Fin 1024, P0 (ix3 0 r k) * P1 (ix2 k (⟨e.val + 512, by omega⟩ : Fin 1024)))
              + P2 (ix2 0 (⟨e.val + 512, by omega⟩ : Fin 1024)))) := by
  have hi : Value.ix4_0 (ix3 z r e) = ix2 r (⟨e.val + 512, by omega⟩ : Fin 1024) := funext fun a => by
    match a with
    | ⟨0, _⟩ => rfl
    | ⟨1, _⟩ => rfl
  show Ideal.exp (Ideal.ofBits .f32 0x3F000000#32 * k0_pay1 P0 P1 P2 (Value.ix4_0 (ix3 z r e))) = _
  rw [hi, pay1_apply]

/-! ## The index maps over the grid -/

/-- The printed index maps, decided over the sixteen points: x moves with the outputs on the batch and row-block axes, the
    weight and the bias stay, the two outputs move together, and the outputs' block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) ≤ 7 ∧ win0_3.index t (1 : Fin 3) ≤ 1 :=
  (by decide +kernel : ∀ t : Fin grid0.N, _)

/-- Every block of an output is some point's. -/
theorem idx_onto3 : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

theorem idx_onto4 : ∀ (q0 : Fin 8) (q1 : Fin 2), ∃ t : Fin cfg0.N, win0_4.index t = ![q0.val, q1.val, 0] :=
  (by decide +kernel : ∀ (q0 : Fin 8) (q1 : Fin 2), ∃ t : Fin grid0.N, win0_4.index t = ![q0.val, q1.val, 0])

/-! ## The staged blocks read where the output block's entry sits -/

/-- The x block at (0, r, k) is x at the output entry's batch and row, column k. -/
theorem read_x (c : Dev nD) (t : Fin cfg0.N) (w : Fin 3 → Nat) (hw0 : w 0 = win0_3.index t (0 : Fin 3))
    (hw1 : w 1 = win0_3.index t (1 : Fin 3)) (z : Fin 1) (r k : Fin 1024) (J : S8x2048x512.Idx)
    (hJ0 : (J 0).val = w 0 * 1 + 1 * z.val) (hJ1 : (J 1).val = w 1 * 1024 + 1 * r.val) :
    iblk m c 0 t (ix3 (0 : Fin 1) r k) = m ((c : Thread nD τ).loc main_arg0) (ix3 (J 0) (J 1) k) := by
  obtain ⟨a00, a01, a02, -⟩ := idx_facts t
  show V m c main_arg0 (((cfg0.win 0).blk t).view.emb (ix3 (0 : Fin 1) r k)) = _
  rw [V_main_arg0]
  refine congrArg (m ((c : Thread nD τ).loc main_arg0)) (funext fun a => Fin.ext ?_)
  have hz := z.isLt
  match a with
  | ⟨0, _⟩ => show win0_0.index t (0 : Fin 3) * 1 + 1 * (0 : Fin 1).val = (J 0).val; simp only [Fin.val_zero]; omega
  | ⟨1, _⟩ => show win0_0.index t (1 : Fin 3) * 1024 + 1 * r.val = (J 1).val; omega
  | ⟨2, _⟩ => show win0_0.index t (2 : Fin 3) * 1024 + 1 * k.val = k.val; omega

/-- The weight block is the whole combined weight. -/
theorem read_w (c : Dev nD) (t : Fin cfg0.N) (k col : Fin 1024) :
    iblk m c 1 t (ix2 k col)
      = Wc (m ((c : Thread nD τ).loc main_arg1)) (m ((c : Thread nD τ).loc main_arg3)) (ix2 k col) := by
  obtain ⟨-, -, -, -, b0, b1, -⟩ := idx_facts t
  show V m c main_v3 (((cfg0.win 1).blk t).view.emb (ix2 k col)) = _
  rw [V_weight]
  refine congrArg (Wc _ _) (funext fun a => Fin.ext ?_)
  match a with
  | ⟨0, _⟩ => show win0_1.index t (0 : Fin 2) * 1024 + 1 * k.val = k.val; omega
  | ⟨1, _⟩ => show win0_1.index t (1 : Fin 2) * 1024 + 1 * col.val = col.val; omega

/-- The bias block is the whole combined bias row. -/
theorem read_b (c : Dev nD) (t : Fin cfg0.N) (col : Fin 1024) :
    iblk m c 2 t (ix2 (0 : Fin 1) col)
      = bc (m ((c : Thread nD τ).loc main_arg2)) (m ((c : Thread nD τ).loc main_arg4)) (ix2 (0 : Fin 1) col) := by
  obtain ⟨-, -, -, -, -, -, b2, b3, -⟩ := idx_facts t
  show V m c main_v5 (((cfg0.win 2).blk t).view.emb (ix2 (0 : Fin 1) col)) = _
  rw [V_bias]
  refine congrArg (bc _ _) (funext fun a => Fin.ext ?_)
  match a with
  | ⟨0, _⟩ => show win0_2.index t (0 : Fin 2) * 1 + 1 * (0 : Fin 1).val = (0 : Fin 1).val; simp only [Fin.val_zero]; omega
  | ⟨1, _⟩ => show win0_2.index t (1 : Fin 2) * 1024 + 1 * col.val = col.val; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- An entry of the first output's block is the first head at the array index the entry sits at. -/
theorem point3 (c : Dev nD) (t : Fin cfg0.N) (y : S1x1024x512.Idx) :
    View.canon [(⟨r0_3, k0_pay2 (iblk m c 0 t) (iblk m c 1 t) (iblk m c 2 t)⟩ : View.Piece (Elt Ideal) S1x1024x512 .f32)] y
      = Cert.Heads.mean (m ((c : Thread nD τ).loc main_arg0)) (m ((c : Thread nD τ).loc main_arg1))
          (m ((c : Thread nD τ).loc main_arg2)) (((cfg0.win 3).blk t).view.emb y) := by
  obtain ⟨z, r, e, rfl⟩ : ∃ (z : Fin 1) (r : Fin 1024) (e : Fin 512), y = ix3 z r e := ⟨y 0, y 1, y 2, eq_ix3 y⟩
  obtain ⟨-, -, -, a32, -⟩ := idx_facts t
  refine (Value.canon3_eq (iblk m c 0 t) (iblk m c 1 t) (iblk m c 2 t) (ix3 z r e)).trans ?_
  refine (E3_apply (iblk m c 0 t) (iblk m c 1 t) (iblk m c 2 t) z r e).trans ?_
  have hJ2 : (((cfg0.win 3).blk t).view.emb (ix3 z r e)) 2 = e := Fin.ext (by
    show win0_3.index t (2 : Fin 3) * 512 + 1 * e.val = e.val; omega)
  unfold Cert.Heads.mean Cert.Heads.lin
  rw [hJ2]
  refine congrArg₂ (· + ·) (Finset.sum_congr rfl fun k _ => congrArg₂ (· * ·) ?_ ?_) ?_
  · exact read_x m c t (win0_3.index t) rfl rfl z r k _ rfl rfl
  · exact (read_w m c t k _).trans (Wc_left _ _ k e)
  · exact (read_b m c t _).trans (bc_left _ _ e)

/-- An entry of the second output's block is the second result at the array index the entry sits at. -/
theorem point4 (c : Dev nD) (t : Fin cfg0.N) (y : S1x1024x512.Idx) :
    View.canon [(⟨r0_3, k0_pay3 (iblk m c 0 t) (iblk m c 1 t) (iblk m c 2 t)⟩ : View.Piece (Elt Ideal) S1x1024x512 .f32)] y
      = Cert.Heads.spread (m ((c : Thread nD τ).loc main_arg0)) (m ((c : Thread nD τ).loc main_arg3))
          (m ((c : Thread nD τ).loc main_arg4)) (((cfg0.win 4).blk t).view.emb y) := by
  obtain ⟨z, r, e, rfl⟩ : ∃ (z : Fin 1) (r : Fin 1024) (e : Fin 512), y = ix3 z r e := ⟨y 0, y 1, y 2, eq_ix3 y⟩
  obtain ⟨-, -, -, -, -, -, -, -, c0, c1, c2, -⟩ := idx_facts t
  refine (Value.canon4_eq (iblk m c 0 t) (iblk m c 1 t) (iblk m c 2 t) (ix3 z r e)).trans ?_
  refine (E4_apply (iblk m c 0 t) (iblk m c 1 t) (iblk m c 2 t) z r e).trans ?_
  have hJ2 : (((cfg0.win 4).blk t).view.emb (ix3 z r e)) 2 = e := Fin.ext (by
    show win0_4.index t (2 : Fin 3) * 512 + 1 * e.val = e.val; omega)
  unfold Cert.Heads.spread Cert.Heads.lin
  rw [hJ2]
  refine congrArg (fun v => Ideal.exp (Ideal.ofBits .f32 0x3F000000#32 * v)) ?_
  refine congrArg₂ (· + ·) (Finset.sum_congr rfl fun k _ => congrArg₂ (· * ·) ?_ ?_) ?_
  · exact read_x m c t (win0_4.index t) c0 c1 z r k _ rfl rfl
  · exact (read_w m c t k _).trans (Wc_right _ _ k e)
  · exact (read_b m c t _).trans (bc_right _ _ e)

/-- WHAT POINT t WRITES BACK to the first output is block t of the first head. -/
theorem flushed3_eq (c : Dev nD) (t : Fin cfg0.N) :
    (dats m 0 c).flushed 3 t = ((cfg0.win 3).blk t).view.read (Elt Ideal)
      (Cert.Heads.mean (m ((c : Thread nD τ).loc main_arg0)) (m ((c : Thread nD τ).loc main_arg1))
        (m ((c : Thread nD τ).loc main_arg2))) := by
  rw [Value.flushed3]
  unfold out0_3
  simp only [View.ld_unit_zero (S := S1x1024x1024) hz3, View.ld_unit_zero (S := S1024x1024) hz2,
    View.ld_unit_zero (S := S1x1024) hz2]
  funext y
  exact point3 m c t y

/-- WHAT POINT t WRITES BACK to the second output is block t of the second result. -/
theorem flushed4_eq (c : Dev nD) (t : Fin cfg0.N) :
    (dats m 0 c).flushed 4 t = ((cfg0.win 4).blk t).view.read (Elt Ideal)
      (Cert.Heads.spread (m ((c : Thread nD τ).loc main_arg0)) (m ((c : Thread nD τ).loc main_arg3))
        (m ((c : Thread nD τ).loc main_arg4))) := by
  rw [Value.flushed4]
  unfold out0_4
  simp only [View.ld_unit_zero (S := S1x1024x1024) hz3, View.ld_unit_zero (S := S1024x1024) hz2,
    View.ld_unit_zero (S := S1x1024) hz2]
  funext y
  exact point4 m c t y

/-! ## The blocks tile each output -/

/-- An index of the first output is in point t's block iff each coordinate is in the block's range on its axis. -/
theorem mem_blk3 (t : Fin cfg0.N) (i : S8x2048x512.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v6_0).slice (win0_3.rect t)).set ↔ _
  rw [View.set_slice_whole, Rect.mem_set_unit]
  exact Iff.rfl

theorem mem_blk4 (t : Fin cfg0.N) (i : S8x2048x512.Idx) :
    i ∈ ((cfg0.win 4).blk t).view.set ↔ ∀ a : Fin 3, win0_4.index t a * S1x1024x512.size a ≤ (i a).val
      ∧ (i a).val < win0_4.index t a * S1x1024x512.size a + S1x1024x512.size a := by
  show i ∈ ((View.whole main_v6_1).slice (win0_4.rect t)).set ↔ _
  rw [View.set_slice_whole, Rect.mem_set_unit]
  exact Iff.rfl

/-- Every index (p, n, e) of the first output is in the block of the point (p, n / 1024). -/
theorem cover3 (i : S8x2048x512.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  obtain ⟨t, ht⟩ := idx_onto3 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- The same for the second output. -/
theorem cover4 (i : S8x2048x512.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 512 := (i 2).isLt
  obtain ⟨t, ht⟩ := idx_onto4 ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

/-! ## The output arrays after the run -/

/-- The first output array ends holding the first head. -/
theorem final3 (c : Dev nD) :
    (dats m 0 c).arrAt 3 cfg0.N = Cert.Heads.mean (m ((c : Thread nD τ).loc main_arg0))
      (m ((c : Thread nD τ).loc main_arg1)) (m ((c : Thread nD τ).loc main_arg2)) :=
  (dats m 0 c).arrAt_eq_of_cover 3 _ (fun t _ => flushed3_eq m c t) cover3

/-- The second output array ends holding exp (½ · second head). -/
theorem final4 (c : Dev nD) :
    (dats m 0 c).arrAt 4 cfg0.N = Cert.Heads.spread (m ((c : Thread nD τ).loc main_arg0))
      (m ((c : Thread nD τ).loc main_arg3)) (m ((c : Thread nD τ).loc main_arg4)) :=
  (dats m 0 c).arrAt_eq_of_cover 4 _ (fun t _ => flushed4_eq m c t) cover4

/-- THE KERNEL'S RUN, READ: both results at the heads of the argument arrays, the arguments unchanged. -/
theorem run : θ_run defs (onTc (τ := τ) (main (F := Ideal))) ⟨m, fun _ => 0, ρ⟩ fun r => ∀ c : Dev nD,
      r.2.mem ((c : Thread nD τ).loc main_v6_0) = Cert.Heads.mean (m ((c : Thread nD τ).loc main_arg0))
          (m ((c : Thread nD τ).loc main_arg1)) (m ((c : Thread nD τ).loc main_arg2))
      ∧ r.2.mem ((c : Thread nD τ).loc main_v6_1) = Cert.Heads.spread (m ((c : Thread nD τ).loc main_arg0))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final3 m c), (h c).2.1.trans (final4 m c), (h c).2.2⟩)
    (Value.run_blocks m ρ)

end Cert.KernelIdeal.Bridge

end
-- ==== Proof.LibGatherDiag.lean ====
/-
  `stablehlo.gather` of a rank-3 operand `[A, N1, N2]` at an `[R, 2]` array of start-index pairs, read at an index.

  This is what taking a diagonal over the last two axes lowers to (`jnp.diagonal` of a transposed array): the result has shape
  `[A, R]`; its axis 0 is the operand's axis 0 kept whole (an offset axis of slice size `A`), the operand's axes 1 and 2 are
  collapsed (slice size 1) and receive the two components of the start index, which row `r` of the start indices supplies.
  Result element `(a, r)` is therefore the operand at `(a, i, j)` with `i`, `j` the pair `idx[r, 0]`, `idx[r, 1]` read as
  signed integers and clamped into the operand's extents, as StableHLO clamps every start index.
-/
import Idealize.ShloMosaic.Lib.ValueIdx

noncomputable section

namespace Cert.LibGatherDiag

open Idealize.ShloMosaic Idealize.ShloMosaic.ValueIdx

variable {α : Type}

/-- The dimension numbers: offset axis `[0]`, collapsed operand axes `[1, 2]`, start index map `[1, 2]`, the index vector
    along axis 1 of the start indices, slice sizes `[A, 1, 1]`.  Their side conditions `wf` are decided on literal shapes. -/
abbrev pairDims (A N1 N2 R : Nat)
    (wf : GatherDims.WF ⟨3, ![A, N1, N2]⟩ ⟨2, ![R, 2]⟩ ⟨2, ![A, R]⟩ [0] [1, 2] [] [1, 2] [] 1 ![A, 1, 1]) :
    GatherDims ⟨3, ![A, N1, N2]⟩ ⟨2, ![R, 2]⟩ ⟨2, ![A, R]⟩ where
  offsetDims := [0]
  collapsedSliceDims := [1, 2]
  operandBatchingDims := []
  startIndicesBatchingDims := []
  startIndexMap := [1, 2]
  indexVectorDim := 1
  sliceSizes := ![A, 1, 1]
  wf := wf

/-- THE GATHER READ AT `(a, r)`: the operand at `(a, idx[r, 0], idx[r, 1])`, the two start-index components read signed and
    clamped into `[0, N1 − 1]` and `[0, N2 − 1]`. -/
theorem gather_pair_apply {A N1 N2 R w : Nat} (h1 : 0 < N1) (h2 : 0 < N2)
    (wf : GatherDims.WF ⟨3, ![A, N1, N2]⟩ ⟨2, ![R, 2]⟩ ⟨2, ![A, R]⟩ [0] [1, 2] [] [1, 2] [] 1 ![A, 1, 1])
    (x : (⟨3, ![A, N1, N2]⟩ : Shape).Idx → α) (idx : IVec ⟨2, ![R, 2]⟩ w) (a : Fin A) (r : Fin R) :
    Host.gather (pairDims A N1 N2 R wf) x idx (ix2 a r)
      = x (ix3 a ⟨min (idx (ix2 r (0 : Fin 2))).toInt.toNat (N1 - 1), by omega⟩
                 ⟨min (idx (ix2 r (1 : Fin 2))).toInt.toNat (N2 - 1), by omega⟩) := by
  unfold Host.gather
  congr 1
  funext b
  refine Fin.ext ?_
  match b with
  | ⟨0, _⟩ =>
    show (pairDims A N1 N2 R wf).start (ix2 a r) idx 0 + (pairDims A N1 N2 R wf).batchCoord (ix2 a r) 0
      + (pairDims A N1 N2 R wf).offCoord (ix2 a r) 0 = a.val
    rw [GatherDims.batchCoord_eq_zero _ _ _ List.not_mem_nil]
    unfold GatherDims.start
    rw [dif_neg (show (0 : Fin 3) ∉ (pairDims A N1 N2 R wf).startIndexMap from
      (by decide : (0 : Fin 3) ∉ ([1, 2] : List (Fin 3))))]
    simp only [Nat.add_zero, Nat.zero_add]
    unfold GatherDims.offCoord
    rw [dif_pos (show (0 : Fin 3) ∈ (pairDims A N1 N2 R wf).sKept from
      (by decide : (0 : Fin 3) ∈ ([0] : List (Fin 3))))]
    rfl
  | ⟨1, _⟩ =>
    show (pairDims A N1 N2 R wf).start (ix2 a r) idx 1 + (pairDims A N1 N2 R wf).batchCoord (ix2 a r) 1
      + (pairDims A N1 N2 R wf).offCoord (ix2 a r) 1 = min (idx (ix2 r (0 : Fin 2))).toInt.toNat (N1 - 1)
    rw [GatherDims.batchCoord_eq_zero _ _ _ List.not_mem_nil,
      GatherDims.offCoord_eq_zero _ _ _ (fun h => ((GatherDims.mem_sKept _ _).mp h).1
        (show (1 : Fin 3) ∈ (pairDims A N1 N2 R wf).collapsedSliceDims from
          (by decide : (1 : Fin 3) ∈ ([1, 2] : List (Fin 3)))))]
    simp only [Nat.add_zero]
    unfold GatherDims.start
    rw [dif_pos (show (1 : Fin 3) ∈ (pairDims A N1 N2 R wf).startIndexMap from
      (by decide : (1 : Fin 3) ∈ ([1, 2] : List (Fin 3))))]
    have hsi : (pairDims A N1 N2 R wf).siIdx (ix2 a r) ⟨List.idxOf (1 : Fin 3) (pairDims A N1 N2 R wf).startIndexMap,
        List.idxOf_lt_length_iff.2 (show (1 : Fin 3) ∈ (pairDims A N1 N2 R wf).startIndexMap from
          (by decide : (1 : Fin 3) ∈ ([1, 2] : List (Fin 3))))⟩ = ix2 r (0 : Fin 2) := by
      funext c; refine Fin.ext ?_
      match c with
      | ⟨0, _⟩ => rfl
      | ⟨1, _⟩ => rfl
    rw [hsi]
    rfl
  | ⟨2, _⟩ =>
    show (pairDims A N1 N2 R wf).start (ix2 a r) idx 2 + (pairDims A N1 N2 R wf).batchCoord (ix2 a r) 2
      + (pairDims A N1 N2 R wf).offCoord (ix2 a r) 2 = min (idx (ix2 r (1 : Fin 2))).toInt.toNat (N2 - 1)
    rw [GatherDims.batchCoord_eq_zero _ _ _ List.not_mem_nil,
      GatherDims.offCoord_eq_zero _ _ _ (fun h => ((GatherDims.mem_sKept _ _).mp h).1
        (show (2 : Fin 3) ∈ (pairDims A N1 N2 R wf).collapsedSliceDims from
          (by decide : (2 : Fin 3) ∈ ([1, 2] : List (Fin 3)))))]
    simp only [Nat.add_zero]
    unfold GatherDims.start
    rw [dif_pos (show (2 : Fin 3) ∈ (pairDims A N1 N2 R wf).startIndexMap from
      (by decide : (2 : Fin 3) ∈ ([1, 2] : List (Fin 3))))]
    have hsi : (pairDims A N1 N2 R wf).siIdx (ix2 a r) ⟨List.idxOf (2 : Fin 3) (pairDims A N1 N2 R wf).startIndexMap,
        List.idxOf_lt_length_iff.2 (show (2 : Fin 3) ∈ (pairDims A N1 N2 R wf).startIndexMap from
          (by decide : (2 : Fin 3) ∈ ([1, 2] : List (Fin 3))))⟩ = ix2 r (1 : Fin 2) := by
      funext c; refine Fin.ext ?_
      match c with
      | ⟨0, _⟩ => rfl
      | ⟨1, _⟩ => rfl
    rw [hsi]
    rfl

end Cert.LibGatherDiag

end
-- ==== Proof.LibGaussDiag.lean ====
/-
  The diagonal of a Gaussian kernel matrix built from squared distances, over the extended reals.

  For a row z the squared distance of the row to itself is written  (s + s) − 2 · g  with  s = 0 + ∑ k, z k · z k  (a sum
  from a zero initial value) and  g = ∑ k, z k · z k  (the row's product with itself); the kernel entry is
  exp (−((s + s) − 2 · g) / 2). When every z k is a real number, s = g is a real q, (q + q) − 2 · q = 0 and the entry is
  exp 0 = 1. With an infinite entry the difference is ∞ − ∞ and the statement fails, so the hypothesis is needed.
  The literals are the 32-bit patterns of 0.0 and 2.0.
-/
import Idealize.ShloMosaic.PureOps.Ideal.Laws

noncomputable section

open scoped BigOperators

namespace Cert.LibGaussDiag

open Idealize.ShloMosaic

/-- A finite sum of reals, taken in the extended reals, is the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The literal 0x40000000 is the real 2. -/
theorem ofBits_two : Ideal.ofBits .f32 0x40000000#32 = ((2 : ℝ) : EReal) := by
  simp [Ideal.ofBits, Ideal.ieee, -EReal.coe_mul]; norm_num

/-- THE LAW: on a row of reals the Gaussian kernel's diagonal entry is 1. -/
theorem gauss_diag_one {K : Nat} (z : Fin K → EReal) (hz : ∀ k, ∃ r : ℝ, z k = (r : EReal)) :
    Ideal.exp (Ideal.div
      (-(((Ideal.ofBits .f32 0x00000000#32 + ∑ k : Fin K, z k * z k)
            + (Ideal.ofBits .f32 0x00000000#32 + ∑ k : Fin K, z k * z k))
          - Ideal.ofBits .f32 0x40000000#32 * ∑ k : Fin K, z k * z k))
      (Ideal.ofBits .f32 0x40000000#32)) = 1 := by
  choose r hr using hz
  have hq : (∑ k : Fin K, z k * z k) = ((∑ k : Fin K, r k * r k : ℝ) : EReal) := by
    rw [← coe_sum]
    exact Finset.sum_congr rfl fun k _ => by rw [hr k, EReal.coe_mul]
  rw [hq, Ideal.ofBits_zero_f32, zero_add, ofBits_two, ← EReal.coe_add, ← EReal.coe_mul, ← EReal.coe_sub]
  have h0 : (∑ k : Fin K, r k * r k) + (∑ k : Fin K, r k * r k) - 2 * (∑ k : Fin K, r k * r k) = 0 := by ring
  rw [h0, EReal.coe_zero, neg_zero, Ideal.div_coe (by norm_num : (2 : ℝ) ≠ 0), zero_mul]
  show Ideal.exp ((0 : ℝ) : EReal) = 1
  rw [Ideal.exp_coe, Real.exp_zero, EReal.coe_one]

end Cert.LibGaussDiag

end
-- ==== Proof.RefHeads.lean ====
/-
  The reference's two results as the heads.

  The first result is the head of (x, W₁, b₁), read off the host's dot_general and the spread bias. The second is
  exp (½ · head (x, W₃, b₃)) times the diagonal of the Gaussian kernel matrix of the rows of x. The diagonal is taken by a
  gather at the index pairs (n, n): each pair is an iota, wrapped when negative (it never is: n < 2048), and clamped into
  the axis (it already lies there). At (p, n, n) the matrix entry is exp (−((s + s) − 2 · g) / 2) with s the row's sum of
  squares and g the row's product with itself, which is 1 on a row of reals (LibGaussDiag.gauss_diag_one).
-/
import proofs.«107410_j59605556134142_2_alg».proof.Proof.Gen.ReferenceIdeal.Read
import proofs.«107410_j59605556134142_2_alg».proof.Proof.Heads
import proofs.«107410_j59605556134142_2_alg».proof.Proof.LibGatherDiag
import proofs.«107410_j59605556134142_2_alg».proof.Proof.LibGaussDiag
import Idealize.ShloMosaic.Lib.Pipeline.Value
import Idealize.ShloMosaic.Lib.ValueIdx
import Idealize.ShloMosaic.Lib.Affine

noncomputable section

open scoped BigOperators

namespace Cert.ReferenceIdeal.Bridge

open Cert.ReferenceIdeal Cert.ReferenceIdeal.Read Idealize.ShloMosaic Idealize.ShloMosaic.ValueIdx

/-! ## The two heads -/

/-- The first head: the dot_general plus the bias spread over (p, n). -/
theorem head3_apply (x0 : (⟨S8x2048x1024, .f32⟩ : BufTy).Contents (Elt Ideal)) (x1 : (⟨S512x1024, .f32⟩ : BufTy).Contents (Elt Ideal))
    (x2 : (⟨S512, .f32⟩ : BufTy).Contents (Elt Ideal)) (i : S8x2048x512.Idx) :
    val_main_v3 (F := Ideal) x0 x1 x2 i = Cert.Heads.lin x0 x1 x2 (i 0) (i 1) (i 2) := by
  rw [val_main_v3_apply, val_main_v0_apply, val_main_v2_apply, val_main_v1_apply]
  have e1 : ∀ k : Fin 1024, lidx_main_v0 i k = ix3 (i 0) (i 1) k := fun k => funext fun a => by
    match a with
    | ⟨0, _⟩ => rfl
    | ⟨1, _⟩ => rfl
    | ⟨2, _⟩ => rfl
  have e2 : ∀ k : Fin 1024, ridx_main_v0 i k = ix2 (i 2) k := fun k => funext fun a => by
    match a with
    | ⟨0, _⟩ => rfl
    | ⟨1, _⟩ => rfl
  have e3 : idx_main_v1 (idx_main_v2 i) = ix1 (i 2) := funext fun a => by
    match a with
    | ⟨0, _⟩ => rfl
  rw [e3]
  simp only [e1, e2]
  rfl

/-- The second head, before the exponential. -/
theorem head7_apply (x0 : (⟨S8x2048x1024, .f32⟩ : BufTy).Contents (Elt Ideal)) (x3 : (⟨S512x1024, .f32⟩ : BufTy).Contents (Elt Ideal))
    (x4 : (⟨S512, .f32⟩ : BufTy).Contents (Elt Ideal)) (i : S8x2048x512.Idx) :
    val_main_v7 (F := Ideal) x0 x3 x4 i = Cert.Heads.lin x0 x3 x4 (i 0) (i 1) (i 2) := by
  rw [val_main_v7_apply, val_main_v4_apply, val_main_v6_apply, val_main_v5_apply]
  have e1 : ∀ k : Fin 1024, lidx_main_v4 i k = ix3 (i 0) (i 1) k := fun k => funext fun a => by
    match a with
    | ⟨0, _⟩ => rfl
    | ⟨1, _⟩ => rfl
    | ⟨2, _⟩ => rfl
  have e2 : ∀ k : Fin 1024, ridx_main_v4 i k = ix2 (i 2) k := fun k => funext fun a => by
    match a with
    | ⟨0, _⟩ => rfl
    | ⟨1, _⟩ => rfl
  have e3 : idx_main_v5 (idx_main_v6 i) = ix1 (i 2) := funext fun a => by
    match a with
    | ⟨0, _⟩ => rfl
  rw [e3]
  simp only [e1, e2]
  rfl

/-! ## The diagonal's index pairs -/

/-- A natural below 2048, as a 32-bit word read signed, is itself. -/
theorem toInt_ofNat_small (r : Nat) (hr : r < 2048) : (BitVec.ofNat 32 r).toInt = (r : Int) := by
  have h1 : (BitVec.ofNat 32 r).toNat = r := by
    rw [BitVec.toNat_ofNat]; exact Nat.mod_eq_of_lt (by omega)
  rw [BitVec.toInt_eq_toNat_of_lt (by rw [h1]; omega), h1]

/-- The wrap of a negative index leaves an index below 2048 alone: it is not negative. -/
theorem wrap_nonneg (r : Nat) (hr : r < 2048) (A : BitVec 32) :
    Scalar.select (IntOp.cmpi .slt (BitVec.ofNat 32 r) 0#32) A (BitVec.ofNat 32 r) = BitVec.ofNat 32 r := by
  have h : ¬ IntOp.cmpi .slt (BitVec.ofNat 32 r) 0#32 = 1#1 := by
    rw [IntOp.cmpi_slt, toInt_ofNat_small r hr]
    show ¬ ((r : Int) < 0)
    omega
  exact if_neg h

/-- The first column of the index pairs at row r is r. -/
theorem col0_apply (r : Fin 2048) : val_main_call0_v12 (F := Ideal) (ix2 r (0 : Fin 1)) = BitVec.ofNat 32 r.val := by
  rw [val_main_call0_v12_apply, val_main_call0_v6_apply, val_main_call0_v3_apply, val_main_call0_v0_apply,
    val_main_call0_v2_apply, val_main_call0_c_apply]
  exact wrap_nonneg r.val r.isLt _

/-- The second column of the index pairs at row r is r. -/
theorem col1_apply (r : Fin 2048) : val_main_call0_v13 (F := Ideal) (ix2 r (0 : Fin 1)) = BitVec.ofNat 32 r.val := by
  rw [val_main_call0_v13_apply, val_main_call0_v11_apply, val_main_call0_v8_apply, val_main_call0_v1_apply,
    val_main_call0_v7_apply, val_main_call0_c_1_apply]
  exact wrap_nonneg r.val r.isLt _

/-- The index pair of row r is (r, r). -/
theorem pair_apply (r : Fin 2048) (q : Fin 2) : val_main_call0_v14 (F := Ideal) (ix2 r q) = BitVec.ofNat 32 r.val := by
  unfold val_main_call0_v14
  match q with
  | ⟨0, _⟩ =>
    refine (concatenate_pair_apply_left (s₁ := S2048x1) (s₂ := S2048x1) (1 : Fin S2048x2.rank) _ _ _ _ rfl
      (ix2 r (0 : Fin 1) : S2048x1.Idx) (fun b => ?_)).trans (col0_apply r)
    match b with
    | ⟨0, _⟩ => rfl
    | ⟨1, _⟩ => rfl
  | ⟨1, _⟩ =>
    refine (concatenate_pair_apply_right (s₁ := S2048x1) (s₂ := S2048x1) (1 : Fin S2048x2.rank) _ _ _ _ rfl rfl
      (ix2 r (0 : Fin 1) : S2048x1.Idx) (fun b hb => ?_) rfl).trans (col1_apply r)
    match b with
    | ⟨0, _⟩ => rfl
    | ⟨1, _⟩ => exact absurd rfl hb

/-- A pair component, read signed and clamped into the axis, is the row. -/
theorem clamp_pair (r : Fin 2048) (q : Fin 2) :
    min (val_main_call0_v14 (F := Ideal) (ix2 r q)).toInt.toNat (2048 - 1) = r.val := by
  rw [pair_apply, toInt_ofNat_small r.val r.isLt]
  have := r.isLt
  simp only [Int.toNat_natCast]
  omega

/-- The gather's dimension numbers are the pair-gather's. -/
theorem gather_pair :
    gather_S8x2048x2048_S2048x2_S8x2048_0_12_n_n_12_1_811
      = Cert.LibGatherDiag.pairDims 8 2048 2048 2048 gather_S8x2048x2048_S2048x2_S8x2048_0_12_n_n_12_1_811.wf := rfl

/-- THE DIAGONAL: the gathered entry (p, n) is the matrix entry (p, n, n). -/
theorem diag_apply (x0 : (⟨S8x2048x1024, .f32⟩ : BufTy).Contents (Elt Ideal)) (p : Fin 8) (n : Fin 2048) :
    val_main_v26 (F := Ideal) x0 (ix2 p n) = val_main_v25 (F := Ideal) x0 (ix3 p n n) := by
  unfold val_main_v26
  rw [gather_pair]
  refine (Cert.LibGatherDiag.gather_pair_apply (by decide) (by decide) _ (val_main_v25 (F := Ideal) x0)
    (val_main_call0_v14 (F := Ideal)) p n).trans ?_
  refine congrArg (val_main_v25 (F := Ideal) x0) (funext fun a => Fin.ext ?_)
  match a with
  | ⟨0, _⟩ => rfl
  | ⟨1, _⟩ => exact clamp_pair n 0
  | ⟨2, _⟩ => exact clamp_pair n 1

/-! ## The Gaussian kernel matrix on its diagonal -/

/-- A row's sum of squares. -/
theorem sq_apply (x0 : (⟨S8x2048x1024, .f32⟩ : BufTy).Contents (Elt Ideal)) (p : Fin 8) (n : Fin 2048) :
    val_main_v12 (F := Ideal) x0 (ix2 p n)
      = Ideal.ofBits .f32 0x00000000#32 + ∑ k : Fin 1024, x0 (ix3 p n k) * x0 (ix3 p n k) := by
  rw [val_main_v12_apply]
  have e : ∀ k : Fin 1024, idx_main_v12 (ix2 p n) k = ix3 p n k := fun k => funext fun a => by
    match a with
    | ⟨0, _⟩ => rfl
    | ⟨1, _⟩ => rfl
    | ⟨2, _⟩ => rfl
  simp only [val_main_v11_apply, e]
  rfl

/-- The sum of squares spread along the columns, at (p, n, n'), is row n's. -/
theorem sq_rows_apply (x0 : (⟨S8x2048x1024, .f32⟩ : BufTy).Contents (Elt Ideal)) (p : Fin 8) (n n' : Fin 2048) :
    val_main_v16 (F := Ideal) x0 (ix3 p n n') = val_main_v12 (F := Ideal) x0 (ix2 p n) := by
  rw [val_main_v16_apply, val_main_v14_apply]
  refine congrArg (val_main_v12 (F := Ideal) x0) (funext fun a => ?_)
  match a with
  | ⟨0, _⟩ => rfl
  | ⟨1, _⟩ => rfl

/-- The sum of squares spread along the rows, at (p, n, n'), is row n''s. -/
theorem sq_cols_apply (x0 : (⟨S8x2048x1024, .f32⟩ : BufTy).Contents (Elt Ideal)) (p : Fin 8) (n n' : Fin 2048) :
    val_main_v17 (F := Ideal) x0 (ix3 p n n') = val_main_v12 (F := Ideal) x0 (ix2 p n') := by
  rw [val_main_v17_apply, val_main_v15_apply]
  refine congrArg (val_main_v12 (F := Ideal) x0) (funext fun a => ?_)
  match a with
  | ⟨0, _⟩ => rfl
  | ⟨1, _⟩ => rfl

/-- The Gram matrix at (p, n, n'): row n against row n'. -/
theorem gram_apply (x0 : (⟨S8x2048x1024, .f32⟩ : BufTy).Contents (Elt Ideal)) (p : Fin 8) (n n' : Fin 2048) :
    val_main_v13 (F := Ideal) x0 (ix3 p n n') = ∑ k : Fin 1024, x0 (ix3 p n k) * x0 (ix3 p n' k) := by
  rw [val_main_v13_apply]
  have el : ∀ k : Fin 1024, lidx_main_v13 (ix3 p n n') k = ix3 p n k := fun k => funext fun a => by
    match a with
    | ⟨0, _⟩ => rfl
    | ⟨1, _⟩ => rfl
    | ⟨2, _⟩ => rfl
  have er : ∀ k : Fin 1024, ridx_main_v13 (ix3 p n n') k = ix3 p n' k := fun k => funext fun a => by
    match a with
    | ⟨0, _⟩ => rfl
    | ⟨1, _⟩ => rfl
    | ⟨2, _⟩ => rfl
  simp only [el, er]

/-- ON A REAL x THE KERNEL MATRIX'S DIAGONAL IS 1. -/
theorem gauss_diag (x0 : (⟨S8x2048x1024, .f32⟩ : BufTy).Contents (Elt Ideal)) (hx : ∀ i, ∃ r : ℝ, x0 i = (r : EReal))
    (p : Fin 8) (n : Fin 2048) : val_main_v25 (F := Ideal) x0 (ix3 p n n) = 1 := by
  show Ideal.exp (Ideal.div
      (-((val_main_v16 (F := Ideal) x0 (ix3 p n n) + val_main_v17 (F := Ideal) x0 (ix3 p n n))
          - val_main_v19 (F := Ideal) (ix3 p n n) * val_main_v13 (F := Ideal) x0 (ix3 p n n)))
      (val_main_v23 (F := Ideal) (ix3 p n n))) = 1
  rw [sq_rows_apply, sq_cols_apply, sq_apply, gram_apply, val_main_v19_apply, val_main_v23_apply]
  exact Cert.LibGaussDiag.gauss_diag_one (fun k => x0 (ix3 p n k)) (fun k => hx _)

/-! ## The two results -/

/-- The reference's first result is the first head. -/
theorem mean_eq (x0 : (⟨S8x2048x1024, .f32⟩ : BufTy).Contents (Elt Ideal)) (x1 : (⟨S512x1024, .f32⟩ : BufTy).Contents (Elt Ideal))
    (x2 : (⟨S512, .f32⟩ : BufTy).Contents (Elt Ideal)) :
    val_main_v3 (F := Ideal) x0 x1 x2 = Cert.Heads.mean x0 x1 x2 :=
  funext fun i => head3_apply x0 x1 x2 i

/-- The reference's second result, on a real x, is exp (½ · second head): the diagonal factor is 1. -/
theorem spread_eq (x0 : (⟨S8x2048x1024, .f32⟩ : BufTy).Contents (Elt Ideal)) (x3 : (⟨S512x1024, .f32⟩ : BufTy).Contents (Elt Ideal))
    (x4 : (⟨S512, .f32⟩ : BufTy).Contents (Elt Ideal)) (hx : ∀ i, ∃ r : ℝ, x0 i = (r : EReal)) :
    val_main_v29 (F := Ideal) x0 x3 x4 = Cert.Heads.spread x0 x3 x4 := by
  funext i
  obtain ⟨p, n, q, rfl⟩ : ∃ (p : Fin 8) (n : Fin 2048) (q : Fin 512), i = ix3 p n q := ⟨i 0, i 1, i 2, eq_ix3 i⟩
  have e : idx_main_v27 (idx_main_v28 (ix3 p n q)) = ix2 p n := funext fun a => by
    match a with
    | ⟨0, _⟩ => rfl
    | ⟨1, _⟩ => rfl
  have hd : val_main_v28 (F := Ideal) x0 (ix3 p n q) = 1 := by
    rw [val_main_v28_apply, val_main_v27_apply, e, diag_apply, gauss_diag x0 hx]
  rw [val_main_v29_apply, hd]
  show Ideal.exp (val_main_v8 (F := Ideal) (ix3 p n q) * val_main_v7 (F := Ideal) x0 x3 x4 (ix3 p n q)) * 1 = _
  rw [mul_one, val_main_v8_apply, head7_apply]
  rfl

end Cert.ReferenceIdeal.Bridge

end
-- ==== Proof.FiniteInputs.lean ====
/-
  From the precondition to real entries.

  The precondition is the conjunction of five tests "every entry of the array has absolute value below +∞", one per
  argument. The test on x says max (x i) (−x i) < ⊤ at every index i; an extended real with that property is neither ⊤ nor
  ⊥, hence a real number.
-/
import proofs.«107410_j59605556134142_2_alg».proof.Pre_finite_inputs
import Idealize.ShloMosaic.Lib.ReduceAll
import Idealize.ShloMosaic.Lib.ValueIdx
import Idealize.ShloMosaic.PureOps.Ideal

noncomputable section

open Idealize.ShloMosaic

namespace Cert.FiniteInputs

open Cert.Pre_finite_inputs

/-- The rank-0 shape has exactly one index. -/
instance subsingleton_S_Idx : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- An extended real whose absolute value `max x (-x)` lies strictly below `⊤` is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- If the all-inputs-finite predicate holds, every entry of the first argument is a real number. -/
theorem arg0_real [Cert.Pre_finite_inputs.Facts]
    (a0 : FVec Ideal Cert.Pre_finite_inputs.S8x2048x1024 .f32) (a1 : FVec Ideal Cert.Pre_finite_inputs.S512x1024 .f32)
    (a2 : FVec Ideal Cert.Pre_finite_inputs.S512 .f32) (a3 : FVec Ideal Cert.Pre_finite_inputs.S512x1024 .f32)
    (a4 : FVec Ideal Cert.Pre_finite_inputs.S512 .f32)
    (h : Cert.Pre_finite_inputs.fn (F := Ideal) a0 a1 a2 a3 a4 = fun _ => 1#1) :
    ∀ i : Cert.Pre_finite_inputs.S8x2048x1024.Idx, ∃ r : ℝ, a0 i = (r : EReal) := by
  intro i
  have h0 := congrFun h ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).1
  have h5 := Host.reduce_andi_all _ _ _ _ _ h4 i
  have h6 : Ideal.cmp .olt (max (a0 i) (-(a0 i))) (Ideal.ofBits .f32 0x7F800000#32) = 1#1 := h5
  have hc : Ideal.ofBits .f32 0x7F800000#32 = (⊤ : EReal) := by simp [Ideal.ofBits, Ideal.ieee]
  rw [hc] at h6
  have h7 : max (a0 i) (-(a0 i)) < (⊤ : EReal) := by
    have := ofBool_eq_one.1 h6
    exact of_decide_eq_true this
  exact real_of_abs_lt_top (a0 i) h7

end Cert.FiniteInputs

end
-- ==== Proof.lean ====
/-
  Two linear heads of x : [8, 2048, 1024] — mu = x · W₁ᵀ + b₁ and exp (½ · (x · W₃ᵀ + b₃)) — computed by one kernel over a
  grid of sixteen row blocks from a combined weight [W₁ᵀ | W₃ᵀ] and a combined bias, against a reference that computes the
  two heads separately and multiplies the second by the diagonal of the Gaussian kernel matrix of x's rows.

  Over the extended reals both programs' first result is the head `Heads.mean` of the argument arrays, index by index: a
  matrix product into a zero accumulator and a dot_general are the same sum, and the format changes are the identity. The
  kernel's second result is `Heads.spread`; the reference's is `Heads.spread` times the kernel matrix's diagonal, and on a
  real x that diagonal is exp (−((s + s) − 2 · s) / 2) = exp 0 = 1 (s a row's sum of squares). This is where the
  precondition is used: every entry of x is finite, hence a real; with an infinite entry the difference would be ∞ − ∞.

  The three frames are the generated frame runs (the reference's is its generated run with the results dropped); the kernel
  is its own idealization (no rewrite), so `preserves` is trivial.
-/
import proofs.«107410_j59605556134142_2_alg».proof.Defs
import proofs.«107410_j59605556134142_2_alg».proof.Proof.Gen.Kernel
import proofs.«107410_j59605556134142_2_alg».proof.Proof.Gen.Kernel.Skeleton
import proofs.«107410_j59605556134142_2_alg».proof.Proof.Gen.Kernel.Launch
import proofs.«107410_j59605556134142_2_alg».proof.Proof.Gen.Kernel.Points
import proofs.«107410_j59605556134142_2_alg».proof.Proof.Gen.Kernel.Frame
import proofs.«107410_j59605556134142_2_alg».proof.Proof.Gen.KernelIdeal
import proofs.«107410_j59605556134142_2_alg».proof.Proof.Gen.KernelIdeal.Skeleton
import proofs.«107410_j59605556134142_2_alg».proof.Proof.Gen.KernelIdeal.Launch
import proofs.«107410_j59605556134142_2_alg».proof.Proof.Gen.KernelIdeal.Points
import proofs.«107410_j59605556134142_2_alg».proof.Proof.Gen.KernelIdeal.Frame
import proofs.«107410_j59605556134142_2_alg».proof.Proof.Gen.ReferenceIdeal
import proofs.«107410_j59605556134142_2_alg».proof.Proof.Gen.Pre_finite_inputs
import proofs.«107410_j59605556134142_2_alg».proof.Proof.Gen.KernelIdeal.Value
import proofs.«107410_j59605556134142_2_alg».proof.Proof.Gen.ReferenceIdeal.Run
import proofs.«107410_j59605556134142_2_alg».proof.Proof.Gen.ReferenceIdeal.Read
import proofs.«107410_j59605556134142_2_alg».proof.Proof.KernelHeads
import proofs.«107410_j59605556134142_2_alg».proof.Proof.RefHeads
import proofs.«107410_j59605556134142_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the two heads of the argument arrays: the kernel by its blocks, the reference by its run read
    operation by operation, its diagonal factor 1 because x is real under the precondition. -/
theorem algebraic : Cert.algebraic_KernelIdeal_ReferenceIdeal := by
  intro m ρ m' ρ' hpre hagree
  have hx : ∀ c : Dev Cert.KernelIdeal.nD, ∀ i, ∃ r : ℝ,
      m ((c.tc : Thread Cert.KernelIdeal.nD Cert.KernelIdeal.τ).loc Cert.KernelIdeal.main_arg0) i = (r : EReal) :=
    fun c => Cert.FiniteInputs.arg0_real _ _ _ _ _ (hpre c)
  refine ⟨_, _, Cert.KernelIdeal.Bridge.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1]
    exact (Cert.ReferenceIdeal.Read.val_main_v3_eq _ _ _).trans (Cert.ReferenceIdeal.Bridge.mean_eq _ _ _)
  · rw [(hagree c).1, (hagree c).2.2.2.1, (hagree c).2.2.2.2]
    exact (Cert.ReferenceIdeal.Read.val_main_v29_eq _ _ _).trans (Cert.ReferenceIdeal.Bridge.spread_eq _ _ _ (hx c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
